-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LinearSpec.lean ====
/-
  The affine map that both programs compute, written once as a function of the three argument arrays.

  For an input matrix `x` (8192 rows of 4096 input features), a weight matrix `w` (4096 output features, each a row of
  4096 input features) and a bias vector `b` (4096 entries), the result at row `n` and output feature `o` is

      y[n, o] = (Σ_k x[n, k] · w[o, k]) + b[o],

  the sum running over the 4096 input features `k`: the product of `x` with the transpose of `w`, plus the bias
  repeated down the rows. Read on the extended reals, each program forms this same sum of products over the same index
  set and adds the same bias entry to it, so the two sides are joined by nothing more than `0 + s = s`; no law that
  needs a finite operand (distributivity, cancellation) enters, and the inputs' finiteness is never used.
-/
import Idealize.ShloMosaic.PureOps.Ideal
import Idealize.ShloMosaic.Lib.ValueIdx

noncomputable section

namespace Cert.Linear

open Idealize.ShloMosaic Idealize.ShloMosaic.ValueIdx
open scoped BigOperators

/-- One entry of the result from its two coordinates: the inner product of row `n` of `x` with row `o` of `w`, plus
    entry `o` of the bias. -/
def affineAt (x : (⟨2, ![8192, 4096]⟩ : Shape).Idx → EReal) (w : (⟨2, ![4096, 4096]⟩ : Shape).Idx → EReal)
    (b : (⟨1, ![4096]⟩ : Shape).Idx → EReal) (n : Fin 8192) (o : Fin 4096) : EReal :=
  (∑ k : Fin 4096, x (ix2 n k) * w (ix2 o k)) + b (ix1 o)

/-- The whole result array, `y[n, o] = (Σ_k x[n, k] · w[o, k]) + b[o]`, index by index. -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => affineAt x w b (i 0) (i 1)

/-- At an index given by its coordinates the array is the entry at those coordinates. -/
theorem affine_ix2 (x : (⟨2, ![8192, 4096]⟩ : Shape).Idx → EReal) (w : (⟨2, ![4096, 4096]⟩ : Shape).Idx → EReal)
    (b : (⟨1, ![4096]⟩ : Shape).Idx → EReal) (n : Fin 8192) (o : Fin 4096) :
    affine x w b (ix2 n o) = affineAt x w b n o := rfl

/-- The entry depends on the row coordinate and the feature coordinate only through their values. -/
theorem affineAt_congr (x : (⟨2, ![8192, 4096]⟩ : Shape).Idx → EReal) (w : (⟨2, ![4096, 4096]⟩ : Shape).Idx → EReal)
    (b : (⟨1, ![4096]⟩ : Shape).Idx → EReal) {n n' : Fin 8192} {o o' : Fin 4096} (hn : n.val = n'.val) (ho : o.val = o'.val) :
    affineAt x w b n o = affineAt x w b n' o' := by
  rw [Fin.ext hn, Fin.ext ho]

end Cert.Linear

end
-- ==== Proof.RefLinear.lean ====
/-
  The reference computes the affine map.

  The reference forms the matrix product by one contraction over the shared feature axis — the result at (n, o) is the
  sum over k of x[n, k] · w[o, k] —, lifts the bias vector to a one-row matrix, repeats that row down the 8192 rows,
  and adds. Read one operation at a time at an index (n, o): the contraction's left operand is read at (n, k) and its
  right operand at (o, k); the repeated row is read at (0, o), and the one-row matrix there is the bias at o. So the
  entry is (Σ_k x[n, k] · w[o, k]) + b[o], which is the specification's entry.
-/
import proofs.«119668_j20899310862698_2_alg».proof.Proof.Gen.ReferenceIdeal.Read
import proofs.«119668_j20899310862698_2_alg».proof.Proof.LinearSpec

noncomputable section

namespace Cert.Linear.Ref

open Cert.ReferenceIdeal Cert.ReferenceIdeal.Read Idealize.ShloMosaic Idealize.ShloMosaic.ValueIdx
open scoped BigOperators

/-- The contraction reads its left operand, at result index `i` and feature `k`, at row `i 0` and column `k`. -/
theorem left_index (i : S8192x4096.Idx) (k : Fin 4096) : lidx_main_v0 i k = ix2 (i 0) k :=
  funext fun a => by match a with | ⟨0, _⟩ => rfl | ⟨1, _⟩ => rfl

/-- It reads its right operand at row `i 1` (the output feature) and column `k`. -/
theorem right_index (i : S8192x4096.Idx) (k : Fin 4096) : ridx_main_v0 i k = ix2 (i 1) k :=
  funext fun a => by match a with | ⟨0, _⟩ => rfl | ⟨1, _⟩ => rfl

/-- The bias, lifted to one row and repeated down the rows, is read at result index `i` at its entry `i 1`. -/
theorem bias_index (i : S8192x4096.Idx) : idx_main_v1 (idx_main_v2 i) = ix1 (i 1) :=
  funext fun a => by match a with | ⟨0, _⟩ => rfl

/-- The reference's last stage, as a function of the three argument arrays, is the affine map. -/
theorem stage_eq_affine (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = Cert.Linear.affine x0 x1 x2 := by
  funext i
  rw [val_main_v3_apply, val_main_v0_apply, val_main_v2_apply, val_main_v1_apply]
  simp only [left_index, right_index, bias_index]
  rfl

end Cert.Linear.Ref

end
-- ==== Proof.Payload.lean ====
/-
  The kernel body's arithmetic, read at one entry of the block it stores.

  At each grid point the body holds a block of 256 rows of `x`, the whole weight matrix `w` (narrowed to a shorter float
  format, which on the extended reals changes nothing) and the bias as a one-row matrix. It narrows the `x` block the same
  way, contracts the two over the shared feature axis into a zero accumulator, repeats the bias row down the 256 rows and
  adds. So the stored entry at local row `r` and output feature `o` is

      0 + Σ_k xblk[r, k] · w[o, k]   +   brow[0, o],

  and the leading zero drops out. The contraction's index bookkeeping: at result index (r, o) and feature `k` the left
  operand is read at (r, k) and the right operand at (o, k) — both operands contract their second axis, and each keeps its
  first axis as a result axis.
-/
import proofs.«119668_j20899310862698_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Linear.Body

open Cert.KernelIdeal Cert.KernelIdeal.Gen Idealize.ShloMosaic Idealize.ShloMosaic.ValueIdx
open scoped BigOperators

/-! ## Where the contraction reads its operands -/

/-- The left operand's row is the result's row. -/
theorem lhs_row (j : S256x4096.Idx) (q : dot_S256x4096_S4096x4096_S256x4096_1_1_0_0_n_n.contr.Idx) :
    (dot_S256x4096_S4096x4096_S256x4096_1_1_0_0_n_n.lhsIdx j q 0).val = (j 0).val := by
  unfold DotDims.lhsIdx
  rw [dif_neg (show ¬(0 : Fin S256x4096.rank) ∈ dot_S256x4096_S4096x4096_S256x4096_1_1_0_0_n_n.lhsBatch by decide), dif_pos (show (0 : Fin S256x4096.rank) ∈ dot_S256x4096_S4096x4096_S256x4096_1_1_0_0_n_n.lhsNonContracting by decide)]
  rfl

/-- The left operand's column is the contracted feature. -/
theorem lhs_col (j : S256x4096.Idx) (q : dot_S256x4096_S4096x4096_S256x4096_1_1_0_0_n_n.contr.Idx) :
    (dot_S256x4096_S4096x4096_S256x4096_1_1_0_0_n_n.lhsIdx j q 1).val = (q ⟨0, by decide⟩).val :=
  dot_S256x4096_S4096x4096_S256x4096_1_1_0_0_n_n.lhsIdx_val_of_single rfl j q

/-- The right operand's row is the result's column: the output feature. -/
theorem rhs_row (j : S256x4096.Idx) (q : dot_S256x4096_S4096x4096_S256x4096_1_1_0_0_n_n.contr.Idx) :
    (dot_S256x4096_S4096x4096_S256x4096_1_1_0_0_n_n.rhsIdx j q 0).val = (j 1).val := by
  unfold DotDims.rhsIdx
  rw [dif_neg (show ¬(0 : Fin S4096x4096.rank) ∈ dot_S256x4096_S4096x4096_S256x4096_1_1_0_0_n_n.rhsBatch by decide), dif_pos (show (0 : Fin S4096x4096.rank) ∈ dot_S256x4096_S4096x4096_S256x4096_1_1_0_0_n_n.rhsNonContracting by decide)]
  rfl

/-- The right operand's column is the contracted feature too. -/
theorem rhs_col (j : S256x4096.Idx) (q : dot_S256x4096_S4096x4096_S256x4096_1_1_0_0_n_n.contr.Idx) :
    (dot_S256x4096_S4096x4096_S256x4096_1_1_0_0_n_n.rhsIdx j q 1).val = (q ⟨0, by decide⟩).val :=
  dot_S256x4096_S4096x4096_S256x4096_1_1_0_0_n_n.rhsIdx_val_of_single rfl j q

/-! ## The two non-pointwise pieces at an entry -/

/-- The contraction into the zero accumulator, at local row `r` and output feature `o`: the inner product of row `r` of the
    left operand with row `o` of the right operand, over the 4096 features. -/
theorem contraction_at (a : FVec Ideal S256x4096 .bf16) (b : FVec Ideal S4096x4096 .bf16) (r : Fin 256) (o : Fin 4096) :
    matmul dot_S256x4096_S4096x4096_S256x4096_1_1_0_0_n_n none a b (constant (F := Ideal) S256x4096 .f32 0x00000000#32) (ix2 r o)
      = ∑ k : Fin 4096, a (ix2 r k) * b (ix2 o k) := by
  simp only [matmul]
  rw [Ideal.matmul_constant_zero_apply, ← Equiv.sum_comp (contrEquiv1 dot_S256x4096_S4096x4096_S256x4096_1_1_0_0_n_n 4096 rfl rfl).symm]
  refine Finset.sum_congr rfl fun k _ => ?_
  have hk := contrEquiv1_symm_val dot_S256x4096_S4096x4096_S256x4096_1_1_0_0_n_n 4096 rfl rfl k
  have el : dot_S256x4096_S4096x4096_S256x4096_1_1_0_0_n_n.lhsIdx (ix2 r o) ((contrEquiv1 dot_S256x4096_S4096x4096_S256x4096_1_1_0_0_n_n 4096 rfl rfl).symm k) = ix2 r k := funext fun d => Fin.ext (by
    match d with
    | ⟨0, _⟩ => exact lhs_row _ _
    | ⟨1, _⟩ => exact (lhs_col _ _).trans hk)
  have er : dot_S256x4096_S4096x4096_S256x4096_1_1_0_0_n_n.rhsIdx (ix2 r o) ((contrEquiv1 dot_S256x4096_S4096x4096_S256x4096_1_1_0_0_n_n 4096 rfl rfl).symm k) = ix2 o k := funext fun d => Fin.ext (by
    match d with
    | ⟨0, _⟩ => exact rhs_row _ _
    | ⟨1, _⟩ => exact (rhs_col _ _).trans hk)
  rw [el, er]

/-- The bias row repeated down the rows, at local row `r` and output feature `o`: the row's entry `o`, whatever `r`. -/
theorem bias_row_at (v : FVec Ideal S1x4096 .f32) (r : Fin 256) (o : Fin 4096) :
    broadcastTo S256x4096 (shapeCast S1x4096 v shapeCasts_S1x4096_S1x4096) broadcasts_S1x4096_S256x4096 (ix2 r o)
      = v (ix2 (0 : Fin 1) o) := by
  rw [shapeCast_self]
  exact broadcastTo_apply v broadcasts_S1x4096_S256x4096 (ix2 r o) (ix2 (0 : Fin 1) o) (fun d => match d with
    | ⟨0, _⟩ => by show (0 : Nat) = if (1 : Nat) = 1 then 0 else r.val; rw [if_pos rfl]
    | ⟨1, _⟩ => by show o.val = if (4096 : Nat) = 1 then 0 else o.val; rw [if_neg (by decide)])

/-! ## The stored entry -/

/-- What the body stores at local row `r` and output feature `o`, from the three blocks it loaded: the inner product of row
    `r` of the `x` block with row `o` of the weight matrix, plus the bias row's entry `o`. -/
theorem stored_at (xblk : FVec Ideal S256x4096 .f32) (wmat : FVec Ideal S4096x4096 .bf16) (brow : FVec Ideal S1x4096 .f32)
    (r : Fin 256) (o : Fin 4096) :
    k0_pay1 (F := Ideal) xblk wmat brow (ix2 r o)
      = (∑ k : Fin 4096, xblk (ix2 r k) * wmat (ix2 o k)) + brow (ix2 (0 : Fin 1) o) := by
  unfold k0_pay1
  refine (addf_apply _ _ (ix2 r o)).trans ?_
  refine congrArg₂ (· + ·) ?_ (bias_row_at brow r o)
  refine (contraction_at _ _ r o).trans ?_
  rw [shapeCast_self]
  rfl

end Cert.Linear.Body

end
-- ==== Proof.HostWindows.lean ====
/-
  What the kernel finds in the two arrays the surrounding program prepares for it.

  Before the kernel runs, the program narrows the weight matrix to a shorter float format and reshapes the bias vector of
  4096 entries into a matrix of one row. On the extended reals a change of float format is the identity, so the
  narrowed matrix holds the weight matrix's entries unchanged; and a reshape keeps row-major order, so entry (0, o) of the
  one-row matrix — at row-major position 0 · 4096 + o — is entry o of the vector.
-/
import proofs.«119668_j20899310862698_2_alg».proof.Proof.Gen.KernelIdeal.Frame
import Idealize.ShloMosaic.Lib.Pipeline.Value
import Idealize.ShloMosaic.Lib.ValueIdx
import Idealize.ShloMosaic.Lib.StableHlo.Run

noncomputable section

namespace Cert.Linear.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The narrowed weight matrix -/

/-- On entry to the kernel the second array holds the weight matrix passed through the narrowing format change. -/
theorem weight_found (c : Dev nD) :
    (V m c main_v0 : S4096x4096.Idx → EReal)
      = (truncf (F := Ideal) .bf16 (m ((c : Thread nD τ).loc main_arg1) : FVec Ideal S4096x4096 .f32) bitsLt_bf16_f32
          : FVec Ideal S4096x4096 .bf16) := by
  dsimp only [Gen.V, Gen.hostOps0]; after_results

/-- Entry by entry that is the weight matrix itself: the format change is the identity on the extended reals. -/
theorem weight_found_at (c : Dev nD) (i : S4096x4096.Idx) :
    (V m c main_v0 : S4096x4096.Idx → EReal) i = m ((c : Thread nD τ).loc main_arg1) i :=
  (congrFun (weight_found m c) i).trans
    (truncf_apply (m ((c : Thread nD τ).loc main_arg1) : FVec Ideal S4096x4096 .f32) bitsLt_bf16_f32 i)

/-! ## The bias as a matrix of one row -/

/-- A vector of 4096 entries reshaped to one row of 4096: entry (0, o) of the row is entry o of the vector. -/
theorem row_of_vector_at {α : Type} (b : S4096.Idx → α) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rw [Shape.rowMajor_val_one, Shape.rowMajor_val_two]
    show o.val = (0 : Nat) * 4096 + o.val
    omega)

/-- On entry to the kernel the third array holds the bias vector reshaped to one row. -/
theorem bias_found (c : Dev nD) :
    (V m c main_v1 : S1x4096.Idx → EReal)
      = shapeCast S1x4096 (m ((c : Thread nD τ).loc main_arg2)) shapeCasts_S4096_S1x4096 := by
  dsimp only [Gen.V, Gen.hostOps0]; after_results; rfl

/-- Its entry (0, o) is the bias vector's entry o. -/
theorem bias_found_at (c : Dev nD) (o : Fin 4096) :
    (V m c main_v1 : S1x4096.Idx → EReal) (ix2 (0 : Fin 1) o) = m ((c : Thread nD τ).loc main_arg2) (ix1 o) :=
  (congrFun (bias_found m c) (ix2 (0 : Fin 1) o)).trans (row_of_vector_at _ o)

end Cert.Linear.Entry

end
-- ==== Proof.Blocks.lean ====
/-
  From what each grid point writes to the whole result array.

  The kernel runs at 32 grid points. Point `t` is given rows 256·t … 256·t + 255 of `x`, the whole weight matrix and the
  whole one-row bias, and writes rows 256·t … 256·t + 255 of the result: the block index of `x` and of the result is
  (t, 0), that of the weight matrix and of the bias row (0, 0), at every point. An element of a block sits in its array
  at block index × block size + its coordinate inside the block, on each axis.

  So the entry the body stores at local row `r` and output feature `o` — the inner product of local row `r` of the `x`
  block with row `o` of the weights, plus the bias row's entry `o` — is the affine map's entry at array row 256·t + r and
  feature `o`: each point writes exactly its block of the one whole-array function. The 32 blocks of 256 rows tile the
  8192 rows (row `n` lies in the block of point n / 256), every point writes its block back, and therefore the array ends
  holding the affine map of the three argument arrays.
-/
import proofs.«119668_j20899310862698_2_alg».proof.Proof.Gen.KernelIdeal.Value
import proofs.«119668_j20899310862698_2_alg».proof.Proof.LinearSpec
import proofs.«119668_j20899310862698_2_alg».proof.Proof.Payload
import proofs.«119668_j20899310862698_2_alg».proof.Proof.HostWindows

noncomputable section

namespace Cert.Linear.Kernel

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The affine map of the three argument arrays as launched, on core `c`: what the result array is to end holding. -/
abbrev result (c : Dev nD) : S8192x4096.Idx → EReal :=
  Cert.Linear.affine (m ((c : Thread nD τ).loc main_arg0)) (m ((c : Thread nD τ).loc main_arg1))
    (m ((c : Thread nD τ).loc main_arg2))

/-! ## The grid and the blocks' places -/

theorem zero_offsets : (![0, 0] : Fin 2 → Nat) = fun _ => 0 := funext fun a => by fin_cases a <;> rfl

/-- There are 32 grid points. -/
theorem points : cfg0.N = 32 := N_0

/-- The block indices at every point, decided over the 32 points: the `x` block and the result block are block `t` along
    the rows; the weight matrix and the bias row are always their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array row that local row `r` of point `t`'s block is: 256·t + r. -/
def rowOf (t : Fin cfg0.N) (r : Fin 256) : Fin 8192 :=
  ⟨t.val * 256 + r.val, by have ht : t.val < 32 := t.isLt.trans_eq points; have hr := r.isLt; omega⟩

theorem rowOf_val (t : Fin cfg0.N) (r : Fin 256) : (rowOf t r).val = t.val * 256 + r.val := rfl

/-- Local entry (r, o) of point `t`'s result block is entry (256·t + r, o) of the result array. -/
theorem result_place (t : Fin cfg0.N) (r : Fin 256) (o : Fin 4096) :
    ((cfg0.win 3).blk t).view.emb (ix2 r o) = ix2 (rowOf t r) o := by
  obtain ⟨-, -, -, -, -, -, e30, e31⟩ := block_indices t
  funext a; apply Fin.ext
  match a with
  | ⟨0, _⟩ => show win0_3.index t (0 : Fin 2) * 256 + 1 * r.val = t.val * 256 + r.val; omega
  | ⟨1, _⟩ => show win0_3.index t (1 : Fin 2) * 4096 + 1 * o.val = o.val; omega

/-! ## The three input blocks at a point, read off the argument arrays -/

/-- Local entry (r, k) of point `t`'s `x` block is entry (256·t + r, k) of `x`. -/
theorem x_block_at (c : Dev nD) (t : Fin cfg0.N) (r : Fin 256) (k : Fin 4096) :
    iblk m c 0 t (ix2 r k) = m ((c : Thread nD τ).loc main_arg0) (ix2 (rowOf t r) k) := by
  obtain ⟨e00, e01, -, -, -, -, -, -⟩ := block_indices t
  have hi : ((cfg0.win 0).blk t).view.emb (ix2 r k) = ix2 (rowOf t r) k := by
    funext a; apply Fin.ext
    match a with
    | ⟨0, _⟩ => show win0_0.index t (0 : Fin 2) * 256 + 1 * r.val = t.val * 256 + r.val; omega
    | ⟨1, _⟩ => show win0_0.index t (1 : Fin 2) * 4096 + 1 * k.val = k.val; omega
  show V m c main_arg0 (((cfg0.win 0).blk t).view.emb (ix2 r k)) = _
  rw [hi, V_main_arg0]

/-- Entry (o, k) of the weight block at any point is entry (o, k) of the weight matrix: the block is the whole matrix, and
    the narrowing the program applied before the kernel changes no entry. -/
theorem w_block_at (c : Dev nD) (t : Fin cfg0.N) (o k : Fin 4096) :
    iblk m c 1 t (ix2 o k) = m ((c : Thread nD τ).loc main_arg1) (ix2 o k) := by
  obtain ⟨-, -, e10, e11, -, -, -, -⟩ := block_indices t
  have hi : ((cfg0.win 1).blk t).view.emb (ix2 o k) = ix2 o k := by
    funext a; apply Fin.ext
    match a with
    | ⟨0, _⟩ => show win0_1.index t (0 : Fin 2) * 4096 + 1 * o.val = o.val; omega
    | ⟨1, _⟩ => show win0_1.index t (1 : Fin 2) * 4096 + 1 * k.val = k.val; omega
  show (V m c main_v0 : S4096x4096.Idx → EReal) (((cfg0.win 1).blk t).view.emb (ix2 o k)) = _
  rw [hi]
  exact Cert.Linear.Entry.weight_found_at m c (ix2 o k)

/-- Entry (0, o) of the bias block at any point is entry `o` of the bias vector: the block is the whole one-row matrix
    the program reshaped the vector into. -/
theorem b_block_at (c : Dev nD) (t : Fin cfg0.N) (o : Fin 4096) :
    iblk m c 2 t (ix2 (0 : Fin 1) o) = m ((c : Thread nD τ).loc main_arg2) (ix1 o) := by
  obtain ⟨-, -, -, -, e20, e21, -, -⟩ := block_indices t
  have hi : ((cfg0.win 2).blk t).view.emb (ix2 (0 : Fin 1) o) = ix2 (0 : Fin 1) o := by
    funext a; apply Fin.ext
    match a with
    | ⟨0, _⟩ => show win0_2.index t (0 : Fin 2) * 1 + 1 * 0 = 0; omega
    | ⟨1, _⟩ => show win0_2.index t (1 : Fin 2) * 4096 + 1 * o.val = o.val; omega
  show (V m c main_v1 : S1x4096.Idx → EReal) (((cfg0.win 2).blk t).view.emb (ix2 (0 : Fin 1) o)) = _
  rw [hi]
  exact Cert.Linear.Entry.bias_found_at m c o

/-! ## What a point writes back -/

/-- Point `t` writes back block `t` of the affine map of the argument arrays. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S256x4096) zero_offsets, View.ld_unit_zero (S := S4096x4096) zero_offsets,
    View.ld_unit_zero (S := S1x4096) zero_offsets]
  funext j
  obtain ⟨r, o, rfl⟩ : ∃ (r : Fin 256) (o : Fin 4096), j = ix2 r o := ⟨j 0, j 1, eq_ix2 j⟩
  show k0_pay1 (F := Ideal) (iblk m c 0 t) (iblk m c 1 t) (iblk m c 2 t) (ix2 r o)
    = result m c (((cfg0.win 3).blk t).view.emb (ix2 r o))
  rw [result_place t r o]
  refine (Cert.Linear.Body.stored_at (iblk m c 0 t) (iblk m c 1 t) (iblk m c 2 t) r o).trans ?_
  show _ = Cert.Linear.affineAt _ _ _ (rowOf t r) o
  unfold Cert.Linear.affineAt
  refine congrArg₂ (· + ·) (Finset.sum_congr rfl fun k _ => ?_) (b_block_at m c t o)
  rw [x_block_at m c t r k, w_block_at m c t o k]

/-! ## The blocks tile the array -/

/-- An index of the result array is in point `t`'s block iff each coordinate is in the block's range on its axis. -/
theorem mem_block (t : Fin cfg0.N) (i : S8192x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v2).slice (win0_3.rect t)).set ↔ _
  rw [View.set_slice_whole, Rect.mem_set_unit]
  exact Iff.rfl

/-- Every index of the result array lies in the block of a point that writes back: row `n` in that of point n / 256. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ : ∃ t : Fin cfg0.N, t.val = (i 0).val / 256 := ⟨⟨(i 0).val / 256, by rw [points]; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-! ## The array after the run, and the run -/

/-- After the run the result array holds the affine map of the argument arrays. -/
theorem final (c : Dev nD) : (dats m 0 c).arrAt 3 cfg0.N = result m c :=
  (dats m 0 c).arrAt_eq_of_cover 3 (result m c) (fun t _ => flushed_eq m c t) covered

/-- Every weakly fair execution of the kernel's program terminates with the result array at the affine map of the
    argument arrays and the argument arrays unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Linear.Kernel

end
-- ==== Proof.lean ====
/-
  A linear layer: the kernel and its reference compute one affine map.

  For `x` of 8192 rows by 4096 input features, a weight matrix `w` of 4096 output features by 4096 input features and a
  bias vector `b` of 4096 entries, both programs produce

      y[n, o] = (Σ_k x[n, k] · w[o, k]) + b[o].

  The kernel works through the rows 256 at a time: at each of 32 grid points it takes one block of rows of `x`, the whole
  weight matrix and the bias as a one-row matrix, contracts the block with the weights over the feature axis into a zero
  accumulator, adds the bias row to every row of the product, and writes the block of 256 result rows back. Before it
  runs, the weights are narrowed to a shorter float format, and inside it the `x` block is too; on the extended reals a
  change of float format is the identity, so neither alters an entry. The reference contracts the whole of `x` with the
  whole weight matrix at once, repeats the bias down the rows and adds.

  Entry by entry the two sides are the same sum of the same 4096 products plus the same bias entry. The kernel's zero
  accumulator contributes `0 + s = s`; no other law of arithmetic is used, and in particular none that fails at an
  infinity, so the finiteness of the inputs is never called on. The 32 row blocks tile the 8192 rows, each grid point
  writes exactly its block of the one whole-array function, and so the result array ends holding the affine map.

  The modules: the affine map as a function of the argument arrays (LinearSpec); the reference's stages compose to it
  (RefLinear); the kernel body's stored entry as an inner product plus a bias entry (Payload); what the kernel finds in
  the narrowed weights and the one-row bias (HostWindows); from each point's block to the whole array (Blocks). The
  kernel carries no rewrite between its printed and its idealized form, so that conjunct asks nothing.
-/
import proofs.«119668_j20899310862698_2_alg».proof.Defs
import proofs.«119668_j20899310862698_2_alg».proof.Proof.Gen.Kernel
import proofs.«119668_j20899310862698_2_alg».proof.Proof.Gen.Kernel.Skeleton
import proofs.«119668_j20899310862698_2_alg».proof.Proof.Gen.Kernel.Launch
import proofs.«119668_j20899310862698_2_alg».proof.Proof.Gen.Kernel.Points
import proofs.«119668_j20899310862698_2_alg».proof.Proof.Gen.Kernel.Frame
import proofs.«119668_j20899310862698_2_alg».proof.Proof.Gen.KernelIdeal
import proofs.«119668_j20899310862698_2_alg».proof.Proof.Gen.KernelIdeal.Skeleton
import proofs.«119668_j20899310862698_2_alg».proof.Proof.Gen.KernelIdeal.Launch
import proofs.«119668_j20899310862698_2_alg».proof.Proof.Gen.KernelIdeal.Points
import proofs.«119668_j20899310862698_2_alg».proof.Proof.Gen.KernelIdeal.Frame
import proofs.«119668_j20899310862698_2_alg».proof.Proof.Gen.ReferenceIdeal
import proofs.«119668_j20899310862698_2_alg».proof.Proof.Gen.Pre_finite_inputs
import proofs.«119668_j20899310862698_2_alg».proof.Proof.Gen.KernelIdeal.Value
import proofs.«119668_j20899310862698_2_alg».proof.Proof.Gen.ReferenceIdeal.Run
import proofs.«119668_j20899310862698_2_alg».proof.Proof.Gen.ReferenceIdeal.Read
import proofs.«119668_j20899310862698_2_alg».proof.Proof.RefLinear
import proofs.«119668_j20899310862698_2_alg».proof.Proof.Blocks
import Idealize.ShloMosaic.Adequacy
import Idealize.ShloMosaic.Init

noncomputable section

namespace Cert.Proof

open Idealize.ShloMosaic Idealize.SL.Sem

/-- The kernel as printed runs to completion without a fault and leaves its three argument arrays as they were. -/
theorem frame_kernel : Cert.frame_Kernel := fun m ρ _ => Cert.Kernel.Gen.frame m ρ

/-- So does its idealized form. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Idealizing the kernel rewrote none of its operations, so there is nothing to justify. -/
theorem preserves : Cert.preserves_Kernel_KernelIdeal := trivial

/-- From argument arrays that agree, the idealized kernel's result array ends at the affine map of its arguments (the
    32 blocks assembled), and the reference's at the composition of its four stages, which is the same affine map of the
    same arrays. -/
theorem algebraic : Cert.algebraic_KernelIdeal_ReferenceIdeal := by
  intro m ρ m' ρ' _ hagree
  refine ⟨_, Cert.Linear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Linear.Ref.stage_eq_affine,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
